-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8x4096x4096 : Shape := ⟨3, ![8, 4096, 4096]⟩
abbrev S8 : Shape := ⟨1, ![8]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_

variable [Facts]

def fn {F : FTy → Type} [FloatOps F] (main_arg0 : FVec F S16384x4096 .f32) (main_arg1 : FVec F S8x4096x4096 .f32) (main_arg2 : IVec S8 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  main_v8
-- ==== Kernel.lean ====
abbrev S16384x4096 : Shape := ⟨2, ![16384, 4096]⟩
abbrev S8x4096x4096 : Shape := ⟨3, ![8, 4096, 4096]⟩
abbrev S8 : Shape := ⟨1, ![8]⟩
abbrev S8x2048x4096 : Shape := ⟨3, ![8, 2048, 4096]⟩
abbrev S1x2048x512 : Shape := ⟨3, ![1, 2048, 512]⟩
abbrev S1x1024x512 : Shape := ⟨3, ![1, 1024, 512]⟩
abbrev S1x2048x1024 : Shape := ⟨3, ![1, 2048, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S8x4096x4096, .f32⟩
  | .hbm, ⟨2, _⟩ => ⟨S8, .i32⟩
  | .hbm, ⟨3, _⟩ => ⟨S8x2048x4096, .f32⟩
  | .hbm, ⟨4, _⟩ => ⟨S8x2048x4096, .f32⟩
  | .hbm, ⟨5, _⟩ => ⟨S16384x4096, .f32⟩
  | .local _ .vmem, ⟨0, _⟩ => ⟨S1x2048x512, .f32⟩
  | .local _ .vmem, ⟨1, _⟩ => ⟨S1x2048x512, .f32⟩
  | .local _ .vmem, ⟨2, _⟩ => ⟨S1x1024x512, .f32⟩
  | .local _ .vmem, ⟨3, _⟩ => ⟨S1x1024x512, .f32⟩
  | .local _ .vmem, ⟨4, _⟩ => ⟨S1x2048x1024, .f32⟩
  | .local _ .vmem, ⟨5, _⟩ => ⟨S1x2048x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 4, 8], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

class Facts₀ : Prop where
  shapeCasts_S16384x4096_S8x2048x4096 : S16384x4096.ShapeCasts S8x2048x4096
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S8x2048x4096_S16384x4096 : S8x2048x4096.ShapeCasts S16384x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x4096.size a
  hwx0_0 : ∀ i : grid0.Coords, EltTy.bits .f32 = 32 ∨ (Rect.block (s := S8x2048x4096) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x4096x4096.size a
  hwx0_1 : ∀ i : grid0.Coords, EltTy.bits .f32 = 32 ∨ (Rect.block (s := S8x4096x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x4096.size a
  hwx0_2 : ∀ i : grid0.Coords, EltTy.bits .f32 = 32 ∨ (Rect.block (s := S8x2048x4096) S1x2048x1024.size (cc0_transform_2 i) (hinb0_2 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S8x4096x4096 : Shape := ⟨3, ![8, 4096, 4096]⟩
abbrev S8 : Shape := ⟨1, ![8]⟩
abbrev S8x2048x4096 : Shape := ⟨3, ![8, 2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8x4096x4096, .f32⟩
  | .hbm, ⟨2, _⟩ => ⟨S8, .i32⟩
  | .hbm, ⟨3, _⟩ => ⟨S8x2048x4096, .f32⟩
  | .hbm, ⟨4, _⟩ => ⟨S8x2048x4096, .f32⟩
  | .hbm, ⟨5, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  shapeCasts_S16384x4096_S8x2048x4096 : S16384x4096.ShapeCasts S8x2048x4096
  shapeCasts_S8x2048x4096_S16384x4096 : S8x2048x4096.ShapeCasts S16384x4096
  dot_S8x2048x4096_S8x4096x4096_S8x2048x4096_2_2_1_1_0_0_wf : DotDims.WF S8x2048x4096 S8x4096x4096 S8x2048x4096 [2] [2] [1] [1] [0] [0]

variable [Facts₀]

def dot_S8x2048x4096_S8x4096x4096_S8x2048x4096_2_2_1_1_0_0 : DotDims S8x2048x4096 S8x4096x4096 S8x2048x4096 where
  lhsContracting := [2]
  rhsContracting := [2]
  lhsNonContracting := [1]
  rhsNonContracting := [1]
  lhsBatch := [0]
  rhsBatch := [0]
  wf := dot_S8x2048x4096_S8x4096x4096_S8x2048x4096_2_2_1_1_0_0_wf

class Facts : Prop extends Facts₀ where

variable [Facts]
-- ==== Proof.TileFound.lean ====
import proofs.«132584_j36507222016814_2_alg».proof.Proof.Gen.KernelIdeal.Frame
import Idealize.ShloMosaic.Lib.Pipeline.Value
import Idealize.ShloMosaic.Lib.Tactic

/-!
# What one grid step leaves in the output tile

The output tile of a grid step is a 2048 × 1024 block that stays in place while the contraction axis advances. On the
first step of a run along that axis the body stores the zero tile, reads it back, and stores `zero + A · Bᵀ`; on every
later step it reads what the step before left and stores `previous + A · Bᵀ`. Both are the same function of the three
blocks the body loads, the first step's third block being the zero tile it has just stored. The last store of a step
covers the whole tile, so the tile after the step is that store's value.
-/

noncomputable section

namespace Cert.KernelIdeal.Tile

open Idealize.ShloMosaic Idealize.ShloMosaic.TcCoe Idealize.SL.Sem
open Cert.KernelIdeal Cert.KernelIdeal.Gen

variable {F : FTy → Type} [FloatOps F]

/-- The stores and loads of the body address the whole tile: all offsets are zero. -/
theorem offsets_zero : (![0, 0, 0] : Fin 3 → Nat) = fun _ => 0 := funext fun a => by fin_cases a <;> rfl

/-- A later step of a run: over the tile `acc` left by the step before, the body leaves the accumulation step's value
    of the two input blocks and `acc`. -/
theorem later_step (c : Dev nD) (i : grid0.Coords) (a4 : Memref sig .tc .vmem S1x2048x512 .f32) (h4 : a4.IsWhole)
    (a5 : Memref sig .tc .vmem S1x1024x512 .f32) (h5 : a5.IsWhole) (a6 : Memref sig .tc .vmem S1x2048x1024 .f32) (h6 : a6.IsWhole)
    (hc : ¬cond0_0 i) (x0 : Vec F S1x2048x512 .f32) (x1 : Vec F S1x1024x512 .f32) (acc : Vec F S1x2048x1024 .f32) :
    out0_B_2 c i a4 h4 a5 h5 a6 h6 hc x0 x1 acc = k0_pay2 x0 x1 acc := by
  unfold out0_B_2
  rw [View.read_writes_eq_canon _ _ _ (cover0_B_2 c i a4 h4 a5 h5 a6 h6 hc x0 x1 acc)]
  unfold kernelRun0_B
  dsimp only
  sl_unfold_words
  rw [View.canon_unit_zero offsets_zero]
  simp only [View.readAt_eq_ld, h4.read_unread, h5.read_unread, h6.read_unread,
    View.ld_unit_zero (S := S1x2048x512) offsets_zero, View.ld_unit_zero (S := S1x1024x512) offsets_zero,
    View.ld_unit_zero (S := S1x2048x1024) offsets_zero]

/-- The first step of a run: the body stores the zero tile, reads it back as the accumulator, and leaves the
    accumulation step's value of the two input blocks and the zero tile. -/
theorem first_step (c : Dev nD) (i : grid0.Coords) (a4 : Memref sig .tc .vmem S1x2048x512 .f32) (h4 : a4.IsWhole)
    (a5 : Memref sig .tc .vmem S1x1024x512 .f32) (h5 : a5.IsWhole) (a6 : Memref sig .tc .vmem S1x2048x1024 .f32) (h6 : a6.IsWhole)
    (hc : cond0_0 i) (x0 : Vec F S1x2048x512 .f32) (x1 : Vec F S1x1024x512 .f32) :
    out0_A_2 c i a4 h4 a5 h5 a6 h6 hc x0 x1 = k0_pay2 x0 x1 (k0_pay1 (F := F)) := by
  unfold out0_A_2
  rw [View.read_writes_eq_canon _ _ _ (cover0_A_2 c i a4 h4 a5 h5 a6 h6 hc x0 x1)]
  unfold kernelRun0_A
  dsimp only
  sl_unfold_words
  rw [View.canon_cons_unit_zero (S := S1x2048x1024) offsets_zero]
  simp only [View.readAt_eq_ld, h4.read_unread, h5.read_unread,
    View.ld_unit_zero (S := S1x2048x512) offsets_zero, View.ld_unit_zero (S := S1x1024x512) offsets_zero,
    View.readCov_unit_zero (S := S1x2048x1024) _ offsets_zero]

end Cert.KernelIdeal.Tile

end
-- ==== Proof.LibIndexReads.lean ====
/-
  General readings of array operations at one entry, over the extended reals or over any element type: a matrix product
  against a transposed right operand, a column spread along rows, an array of rows grouped into batches and back, a
  trailing unit axis added to a matrix, and the sum (of squares) along the last axis of a rank-3 array. Each says which
  entry of the operand an entry of the result reads, with indices written by their coordinates.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Lib.IndexReads

open Idealize.ShloMosaic Idealize.ShloMosaic.ValueIdx

/-! ## A matrix product with the right operand transposed -/

/-- A matrix product A · Bᵀ: both operands contract their SECOND axis, and the accumulator is the zero array. The entry
    (a, b) of the result is the sum over the shared coordinate c of A[a, c] · B[b, c]: the accumulator contributes 0,
    and the sum over the one-axis contraction index is the sum over that axis's coordinate. -/
theorem matmul_nt_apply {m n k : Nat} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) _ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  -- the left operand is read at (a, c): its row from the result's row, its column from the contraction
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  -- the right operand is read at (b, c): its ROW from the result's column
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## A column spread along the rows -/

/-- An `[a, 1]` column broadcast to `[a, b]` reads, at `(p, c)`, the column's entry of row `p`: the unit axis is read
    at 0 whatever `c` is. (The row form, `[1, b]` to `[a, b]`, is the library's `broadcastTo_1b_ab_apply`.) -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- if the column has one row only, that row is row 0
    show p.val = if a = 1 then 0 else p.val
    split
    · have := p.isLt; omega
    · rfl
  | ⟨1, _⟩ => rfl

/-! ## Rows grouped into batches, and back -/

/-- An `[A, B, k]` array viewed as the `[N, k]` array of all its rows (`N = A · B`): row `q = p · B + n` is row `n` of
    batch `p`, because both have the same position in row-major order. -/
theorem flatten_apply {α : Type} {A B N k : ℕ} (x : (⟨3, ![A, B, k]⟩ : Shape).Idx → α)
    (h : (⟨3, ![A, B, k]⟩ : Shape).ShapeCasts ⟨2, ![N, k]⟩)
    (q : Fin N) (p : Fin A) (n : Fin B) (d : Fin k) (hq : q.val = p.val * B + n.val) :
    shapeCast ⟨2, ![N, k]⟩ x h (ix2 q d) = x (ix3 p n d) :=
  shapeCast_apply x h _ _ (by
    rw [Shape.rowMajor_val_three, Shape.rowMajor_val_two]
    show (p.val * B + n.val) * k + d.val = q.val * k + d.val
    rw [hq])

/-- The other direction: the `[N, k]` array of rows viewed as `[A, B, k]` reads, at row `n` of batch `p`, row
    `q = p · B + n`. -/
theorem unflatten_apply {α : Type} {A B N k : ℕ} (x : (⟨2, ![N, k]⟩ : Shape).Idx → α)
    (h : (⟨2, ![N, k]⟩ : Shape).ShapeCasts ⟨3, ![A, B, k]⟩)
    (q : Fin N) (p : Fin A) (n : Fin B) (d : Fin k) (hq : q.val = p.val * B + n.val) :
    shapeCast ⟨3, ![A, B, k]⟩ x h (ix3 p n d) = x (ix2 q d) :=
  shapeCast_apply x h _ _ (by
    rw [Shape.rowMajor_val_three, Shape.rowMajor_val_two]
    show q.val * k + d.val = (p.val * B + n.val) * k + d.val
    rw [hq])

/-! ## A trailing unit axis -/

/-- An `[a, b]` array given a trailing unit axis (a sum taken with the summed axis kept) reads, at `(p, n, u)`, its
    entry `(p, n)`. -/
theorem keepdims_apply {α : Type} {a b : ℕ} (Y : (⟨2, ![a, b]⟩ : Shape).Idx → α)
    (h : (⟨2, ![a, b]⟩ : Shape).BroadcastsInDim ⟨3, ![a, b, 1]⟩ ![0, 1]) (p : Fin a) (n : Fin b) (u : Fin 1) :
    broadcastInDim ⟨3, ![a, b, 1]⟩ ![0, 1] h Y (ix3 p n u) = Y (ix2 p n) :=
  broadcastInDim_apply _ h Y _ _ fun ax => by
    match ax with
    | ⟨0, _⟩ =>
      show p.val = if a = 1 then 0 else p.val
      split
      · have := p.isLt; omega
      · rfl
    | ⟨1, _⟩ =>
      show n.val = if b = 1 then 0 else n.val
      split
      · have := n.isLt; omega
      · rfl

/-! ## Sums along the last axis of a rank-3 array -/

/-- The host's sum along the last axis of an `[A, B, K]` array, at `(p, n)`: the initial value plus the sum over `e` of
    the entry `(p, n, e)`. The reduced index with the summed coordinate put back on the last axis is `(p, n, e)`. -/
theorem hostReduceAdd_last3_apply {A B K : ℕ} {φ : FTy} {u : Shape} (Z : FVec Ideal ⟨3, ![A, B, K]⟩ φ)
    (init : u.Idx → Ideal φ) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) Z init h' hu (ix2 p n) = init (Shape.Idx.first hu) + ∑ e : Fin K, Z (ix3 p n e) := by
  rw [hostReduceAdd_apply, Ideal.hostReduceAdd_single h' hR]
  refine congrArg (init (Shape.Idx.first hu) + ·) ?_
  show ∑ e : Fin K, Z (hR.lift (ix2 p n) e) = _
  refine Finset.sum_congr rfl fun e _ => ?_
  have he : hR.lift (ix2 p n) e = ix3 p n e := by
    funext ax; apply Fin.ext
    match ax with
    | ⟨0, _⟩ => rfl
    | ⟨1, _⟩ => rfl
    | ⟨2, _⟩ => rfl
  rw [he]

/-- The host's sum of squares along the last axis, from the zero word, of an array first widened to f32: at `(p, n)` the
    sum over `e` of the square of the entry `(p, n, e)`. The widening is the identity on extended reals and the zero word
    is 0. -/
theorem hostSumSq_last3_apply {A B K : ℕ} {φ : FTy} {u : Shape} (X : FVec Ideal ⟨3, ![A, B, K]⟩ φ)
    (hlt : φ.bits < FTy.bits .f32) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) (mulf (extf .f32 X hlt) (extf .f32 X hlt)) (constant (F := Ideal) u .f32 0x00000000#32) h' hu
        (ix2 p n)
      = ∑ e : Fin K, X (ix3 p n e) * X (ix3 p n e) := by
  rw [hostReduceAdd_last3_apply _ _ h' hR hu p n]
  show Ideal.ofBits .f32 0x00000000#32 + ∑ e : Fin K, X (ix3 p n e) * X (ix3 p n e) = _
  rw [Ideal.ofBits_zero_f32, zero_add]

end Cert.Lib.IndexReads

end
-- ==== Proof.TileStep.lean ====
import proofs.«132584_j36507222016814_2_alg».proof.Proof.Gen.KernelIdeal.Skeleton
import proofs.«132584_j36507222016814_2_alg».proof.Proof.LibIndexReads
import Idealize.ShloMosaic.Lib.ValueIdx
import Idealize.ShloMosaic.Lib.ValueLayout
import Idealize.ShloMosaic.PureOps.Ideal.Laws

/-!
# The accumulation step, entry by entry

Over the extended reals a change of float format is the identity and the matrix unit's product into a zero accumulator
is the plain sum of products. So the accumulation step of the body, read at row `p` and column `q` of the 2048 × 1024
tile, adds to the accumulator's entry the sum over the 512 features of the blocks of `A[p, s] · B[q, s]`: the right
operand enters transposed. The zero tile is zero at every entry.
-/

noncomputable section

namespace Cert.KernelIdeal.Tile

open Idealize.ShloMosaic Idealize.ShloMosaic.ValueIdx
open Cert.KernelIdeal Cert.KernelIdeal.Gen

/-- The zero tile is zero at every entry. -/
theorem zero_tile_apply (p : Fin 2048) (q : Fin 1024) : k0_pay1 (F := Ideal) (ix3 (0 : Fin 1) p q) = 0 := by
  unfold k0_pay1
  refine (shapeCast_ab_1ab_apply _ _ (0 : Fin 1) p q).trans ?_
  exact Ideal.ofBits_zero_f32

/-- The accumulation step at entry `(p, q)`: the accumulator's entry plus `∑ s, A[p, s] · B[q, s]`. -/
theorem acc_step_apply (x0 : Vec Ideal S1x2048x512 .f32) (x1 : Vec Ideal S1x1024x512 .f32) (acc : Vec Ideal S1x2048x1024 .f32)
    (p : Fin 2048) (q : Fin 1024) :
    k0_pay2 (F := Ideal) x0 x1 acc (ix3 (0 : Fin 1) p q)
      = acc (ix3 (0 : Fin 1) p q) + ∑ s : Fin 512, x0 (ix3 (0 : Fin 1) p s) * x1 (ix3 (0 : Fin 1) q s) := by
  unfold k0_pay2
  refine (shapeCast_ab_1ab_apply _ _ (0 : Fin 1) p q).trans ?_
  refine congrArg₂ (· + ·) (shapeCast_1ab_ab_apply acc _ p q) ?_
  refine (Cert.Lib.IndexReads.matmul_nt_apply _ none _ _ p q).trans ?_
  refine Finset.sum_congr rfl fun s _ => ?_
  exact congrArg₂ (· * ·) (shapeCast_1ab_ab_apply x0 _ p s) (shapeCast_1ab_ab_apply x1 _ q s)

end Cert.KernelIdeal.Tile

end
-- ==== Proof.LibBlockAcc.lean ====
import Mathlib.Algebra.BigOperators.Fin
import Mathlib.Algebra.BigOperators.Intervals

/-!
# A long sum taken in consecutive blocks

A contraction over `n * K` terms may be accumulated block by block: start from zero and, for `k = 0, 1, …`,
add the sum of the `n` consecutive terms `n * k, …, n * k + n - 1`. After `k` blocks the accumulator holds the sum of
the first `n * k` terms, and after all `K` of them the whole sum. Only commutativity and associativity of `+` are
used, so nothing here asks the terms to be finite: the lemmas hold on the extended reals as they stand.
-/

namespace BlockAcc

open Finset

/-- The sum of the first `n * k` terms of a sequence: what the accumulator holds after `k` blocks of length `n`. -/
def partialSum {M : Type*} [AddCommMonoid M] (n : ℕ) (f : ℕ → M) (k : ℕ) : M := ∑ d ∈ range (n * k), f d

/-- Before any block the accumulator is zero. -/
theorem partialSum_zero {M : Type*} [AddCommMonoid M] (n : ℕ) (f : ℕ → M) : partialSum n f 0 = 0 := by
  simp [partialSum]

/-- One more block: the accumulator gains the sum of the next `n` consecutive terms. -/
theorem partialSum_succ {M : Type*} [AddCommMonoid M] (n : ℕ) (f : ℕ → M) (k : ℕ) :
    partialSum n f (k + 1) = partialSum n f k + ∑ s : Fin n, f (n * k + s.val) := by
  unfold partialSum
  rw [Nat.mul_succ, Finset.sum_range_add, Fin.sum_univ_eq_sum_range (fun s => f (n * k + s)) n]

/-- After all `K` blocks the accumulator holds the whole sum over `Fin N`, when `N = n * K`. -/
theorem partialSum_all {M : Type*} [AddCommMonoid M] (n K N : ℕ) (h : N = n * K) (f : ℕ → M) :
    partialSum n f K = ∑ d : Fin N, f d.val := by
  subst h
  unfold partialSum
  rw [Fin.sum_univ_eq_sum_range f (n * K)]

end BlockAcc
-- ==== Proof.GroupedProduct.lean ====
import Idealize.ShloMosaic.Lib.ValueIdx
import Idealize.ShloMosaic.PureOps.Ideal
import proofs.«132584_j36507222016814_2_alg».proof.Proof.LibBlockAcc

/-!
# The grouped product, entry by entry

Eight experts; expert `e` owns 2048 rows of tokens `X[e, ·, ·]` (4096 features each) and a 4096 × 4096 weight
`W[e, ·, ·]` stored output-feature major. The grouped product multiplies each expert's rows by the transpose of its
weight:

    out[e, r, f] = ∑ d < 4096, X[e, r, d] · W[e, f, d].

The contraction over `d` may be taken in eight consecutive blocks of 512 features. To speak of "the first `512 · k`
terms" the product's terms are also listed along the naturals (`term`), zero past the end.
-/

noncomputable section

namespace Cert.GroupedProduct

open Idealize.ShloMosaic Idealize.ShloMosaic.ValueIdx

/-- Tokens grouped by expert, `[expert, row, feature]`. -/
abbrev STok : Shape := ⟨3, ![8, 2048, 4096]⟩
/-- The experts' weights, `[expert, output feature, input feature]`. -/
abbrev SWgt : Shape := ⟨3, ![8, 4096, 4096]⟩

/-- One entry of the grouped product: row `r` of expert `e` against row `f` of that expert's weight. -/
def entry (X : FVec Ideal STok .f32) (W : FVec Ideal SWgt .f32) (e : Fin 8) (r : Fin 2048) (f : Fin 4096) : EReal :=
  ∑ d : Fin 4096, X (ix3 e r d) * W (ix3 e f d)

/-- The grouped product as an array `[expert, row, output feature]`. -/
def product (X : FVec Ideal STok .f32) (W : FVec Ideal SWgt .f32) : FVec Ideal STok .f32 :=
  fun i => entry X W (i 0) (i 1) (i 2)

/-- The `d`-th term of an entry's sum, for any natural `d`: zero past the last feature. -/
def term (X : FVec Ideal STok .f32) (W : FVec Ideal SWgt .f32) (e : Fin 8) (r : Fin 2048) (f : Fin 4096) (d : ℕ) : EReal :=
  if h : d < 4096 then X (ix3 e r ⟨d, h⟩) * W (ix3 e f ⟨d, h⟩) else 0

/-- Inside the range a term is the product of the two entries. -/
theorem term_of_lt (X : FVec Ideal STok .f32) (W : FVec Ideal SWgt .f32) (e : Fin 8) (r : Fin 2048) (f : Fin 4096)
    (d : ℕ) (h : d < 4096) : term X W e r f d = X (ix3 e r ⟨d, h⟩) * W (ix3 e f ⟨d, h⟩) := dif_pos h

/-- All eight blocks of 512 terms together are the entry. -/
theorem entry_eq_blocks (X : FVec Ideal STok .f32) (W : FVec Ideal SWgt .f32) (e : Fin 8) (r : Fin 2048) (f : Fin 4096) :
    BlockAcc.partialSum 512 (term X W e r f) 8 = entry X W e r f := by
  rw [BlockAcc.partialSum_all 512 8 4096 rfl]
  exact Finset.sum_congr rfl fun d _ => term_of_lt X W e r f d.val d.isLt

end Cert.GroupedProduct

end
-- ==== Proof.BlockStep.lean ====
import proofs.«132584_j36507222016814_2_alg».proof.Proof.TileStep
import proofs.«132584_j36507222016814_2_alg».proof.Proof.GroupedProduct

/-!
# One accumulation step adds one block of 512 terms

Fix an expert `e`, a block `jb` of 1024 output features, and a block `k` of 512 input features. Let the first input
block hold the rows of `X[e]` restricted to the features `512 k … 512 k + 511`, and the second the rows
`1024 jb … 1024 jb + 1023` of `W[e]` restricted to the same features. If entry `(p, q)` of the accumulator holds the
first `512 k` terms of the product's entry `(e, p, 1024 jb + q)`, then after the step it holds the first `512 (k + 1)`
terms: the step adds exactly the next block of terms.
-/

noncomputable section

namespace Cert.KernelIdeal.Tile

open Idealize.ShloMosaic Idealize.ShloMosaic.ValueIdx
open Cert.KernelIdeal Cert.KernelIdeal.Gen Cert.GroupedProduct

/-- Column `q` of the `jb`-th block of 1024 output features. -/
def col (jb : Fin 4) (q : Fin 1024) : Fin 4096 := ⟨1024 * jb.val + q.val, by have := jb.isLt; have := q.isLt; omega⟩

theorem col_val (jb : Fin 4) (q : Fin 1024) : (col jb q).val = 1024 * jb.val + q.val := rfl

/-- Feature `s` of the `k`-th block of 512 input features. -/
def feat (k : ℕ) (hk : k < 8) (s : Fin 512) : Fin 4096 := ⟨512 * k + s.val, by have := s.isLt; omega⟩

theorem feat_val (k : ℕ) (hk : k < 8) (s : Fin 512) : (feat k hk s).val = 512 * k + s.val := rfl

/-- The accumulation step carries "the first `512 k` terms" to "the first `512 (k + 1)` terms". -/
theorem acc_step_blocks (X : FVec Ideal STok .f32) (W : FVec Ideal SWgt .f32) (e : Fin 8) (jb : Fin 4) (k : ℕ) (hk : k < 8)
    (x0 : Vec Ideal S1x2048x512 .f32) (x1 : Vec Ideal S1x1024x512 .f32) (acc : Vec Ideal S1x2048x1024 .f32)
    (hx0 : ∀ (p : Fin 2048) (s : Fin 512), x0 (ix3 (0 : Fin 1) p s) = X (ix3 e p (feat k hk s)))
    (hx1 : ∀ (q : Fin 1024) (s : Fin 512), x1 (ix3 (0 : Fin 1) q s) = W (ix3 e (col jb q) (feat k hk s)))
    (p : Fin 2048) (q : Fin 1024)
    (hacc : acc (ix3 (0 : Fin 1) p q) = BlockAcc.partialSum 512 (term X W e p (col jb q)) k) :
    k0_pay2 (F := Ideal) x0 x1 acc (ix3 (0 : Fin 1) p q) = BlockAcc.partialSum 512 (term X W e p (col jb q)) (k + 1) := by
  rw [acc_step_apply, hacc, BlockAcc.partialSum_succ]
  refine congrArg (_ + ·) (Finset.sum_congr rfl fun s _ => ?_)
  rw [hx0 p s, hx1 q s]
  exact (term_of_lt X W e p (col jb q) (512 * k + s.val) (feat k hk s).isLt).symm

/-- On the first step the accumulator is the zero tile: afterwards the tile holds the first block of terms. -/
theorem first_step_blocks (X : FVec Ideal STok .f32) (W : FVec Ideal SWgt .f32) (e : Fin 8) (jb : Fin 4)
    (x0 : Vec Ideal S1x2048x512 .f32) (x1 : Vec Ideal S1x1024x512 .f32)
    (hx0 : ∀ (p : Fin 2048) (s : Fin 512), x0 (ix3 (0 : Fin 1) p s) = X (ix3 e p (feat 0 (by decide) s)))
    (hx1 : ∀ (q : Fin 1024) (s : Fin 512), x1 (ix3 (0 : Fin 1) q s) = W (ix3 e (col jb q) (feat 0 (by decide) s)))
    (p : Fin 2048) (q : Fin 1024) :
    k0_pay2 (F := Ideal) x0 x1 (k0_pay1 (F := Ideal)) (ix3 (0 : Fin 1) p q)
      = BlockAcc.partialSum 512 (term X W e p (col jb q)) 1 :=
  acc_step_blocks X W e jb 0 (by decide) x0 x1 _ hx0 hx1 p q
    ((zero_tile_apply p q).trans (BlockAcc.partialSum_zero 512 _).symm)

end Cert.KernelIdeal.Tile

end
-- ==== Proof.Accumulated.lean ====
import proofs.«132584_j36507222016814_2_alg».proof.Proof.Gen.KernelIdeal.Frame
import proofs.«132584_j36507222016814_2_alg».proof.Proof.TileFound
import proofs.«132584_j36507222016814_2_alg».proof.Proof.BlockStep

/-!
# The output tile along the grid

The grid has 8 × 1 × 4 × 8 points; point `n = 32 e + 8 jb + k` works for expert `e`, on the `jb`-th block of 1024
output features, with the `k`-th block of 512 input features. Its first input block is rows of `X[e]` at the features of
block `k`, its second the rows of block `jb` of `W[e]` at the same features, and its output tile is block `jb` of the
columns of `out[e]`; the tile stays in place while `k` runs from 0 to 7 and is reset at `k = 0`.

So after point `n` entry `(p, q)` of the tile holds the first `512 (k + 1)` terms of the product's entry
`(e, p, 1024 jb + q)`: one block at `k = 0` (the accumulator was just zeroed), and one more block at each later `k`
(induction on the point).
-/

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Tile Cert.GroupedProduct

variable (m : (ℓ : Loc nD τ sig) → Buf (Elt Ideal) ℓ)

/-- The expert of grid point `n`. -/
def expert (n : ℕ) : Fin 8 := ⟨n / 32 % 8, Nat.mod_lt _ (by decide)⟩
/-- The block of output features of grid point `n`. -/
def colBlock (n : ℕ) : Fin 4 := ⟨n / 8 % 4, Nat.mod_lt _ (by decide)⟩

theorem expert_val (n : ℕ) : (expert n).val = n / 32 % 8 := rfl
theorem colBlock_val (n : ℕ) : (colBlock n).val = n / 8 % 4 := rfl

/-- The tokens as the kernel finds them (grouped by expert), and the weights. -/
abbrev tokens (c : Dev nD) : FVec Ideal STok .f32 := V m c main_v0
abbrev weights (c : Dev nD) : FVec Ideal SWgt .f32 := V m c main_arg1

/-- The block indices of the three windows at a grid point, in closed form (decided over the 256 points). -/
theorem index_facts : ∀ t : Fin cfg0.N,
    win0_0.index t (0 : Fin 3) = t.val / 32 ∧ win0_0.index t (1 : Fin 3) = 0 ∧ win0_0.index t (2 : Fin 3) = t.val % 8
    ∧ win0_1.index t (0 : Fin 3) = t.val / 32 ∧ win0_1.index t (1 : Fin 3) = t.val / 8 % 4 ∧ win0_1.index t (2 : Fin 3) = t.val % 8
    ∧ win0_2.index t (0 : Fin 3) = t.val / 32 ∧ win0_2.index t (1 : Fin 3) = 0 ∧ win0_2.index t (2 : Fin 3) = t.val / 8 % 4 :=
  (by decide +kernel : ∀ t : Fin grid0.N, _)

theorem point_lt (t : Fin cfg0.N) : t.val < 256 := lt_of_lt_of_eq t.isLt N_0

theorem k_lt (n : ℕ) : n % 8 < 8 := Nat.mod_lt _ (by decide)

/-- The first input block at point `t`: rows of the point's expert, at the features of the point's block. -/
theorem tokens_block (c : Dev nD) (t : Fin cfg0.N) (p : Fin 2048) (s : Fin 512) :
    (iblk m c 0 t : Vec Ideal S1x2048x512 .f32) (ix3 (0 : Fin 1) p s)
      = tokens m c (ix3 (expert t.val) p (feat (t.val % 8) (k_lt _) s)) := by
  obtain ⟨e0, e1, e2, -⟩ := index_facts t
  have hN := point_lt t
  unfold iblk
  show V m c main_v0 (((cfg0.win 0).blk t).view.emb (ix3 (0 : Fin 1) p s)) = V m c main_v0 _
  refine congrArg (V m c main_v0) ?_
  funext a; apply Fin.ext
  match a with
  | ⟨0, _⟩ => show win0_0.index t (0 : Fin 3) * 1 + 1 * 0 = t.val / 32 % 8; omega
  | ⟨1, _⟩ => show win0_0.index t (1 : Fin 3) * 2048 + 1 * p.val = p.val; omega
  | ⟨2, _⟩ => show win0_0.index t (2 : Fin 3) * 512 + 1 * s.val = 512 * (t.val % 8) + s.val; omega

/-- The second input block at point `t`: the point's block of rows of its expert's weight, at the same features. -/
theorem weights_block (c : Dev nD) (t : Fin cfg0.N) (q : Fin 1024) (s : Fin 512) :
    (iblk m c 1 t : Vec Ideal S1x1024x512 .f32) (ix3 (0 : Fin 1) q s)
      = weights m c (ix3 (expert t.val) (col (colBlock t.val) q) (feat (t.val % 8) (k_lt _) s)) := by
  obtain ⟨-, -, -, e0, e1, e2, -⟩ := index_facts t
  have hN := point_lt t
  unfold iblk
  show V m c main_arg1 (((cfg0.win 1).blk t).view.emb (ix3 (0 : Fin 1) q s)) = V m c main_arg1 _
  refine congrArg (V m c main_arg1) ?_
  funext a; apply Fin.ext
  match a with
  | ⟨0, _⟩ => show win0_1.index t (0 : Fin 3) * 1 + 1 * 0 = t.val / 32 % 8; omega
  | ⟨1, _⟩ => show win0_1.index t (1 : Fin 3) * 1024 + 1 * q.val = 1024 * (t.val / 8 % 4) + q.val; omega
  | ⟨2, _⟩ => show win0_1.index t (2 : Fin 3) * 512 + 1 * s.val = 512 * (t.val % 8) + s.val; omega

/-- What the tile's entry `(p, q)` holds after grid point `n`: the first `n % 8 + 1` blocks of the terms of the product's
    entry for the point's expert, row `p`, and column `q` of the point's block of output features. -/
def held (c : Dev nD) (n : ℕ) (p : Fin 2048) (q : Fin 1024) : EReal :=
  BlockAcc.partialSum 512 (term (tokens m c) (weights m c) (expert n) p (col (colBlock n) q)) (n % 8 + 1)

/-- The output tile after every grid point, by induction on the point. -/
theorem tile_after (c : Dev nD) : ∀ (n : ℕ) (h : n < cfg0.N) (p : Fin 2048) (q : Fin 1024),
    (outsAt0 m c n h : Vec Ideal S1x2048x1024 .f32) (ix3 (0 : Fin 1) p q) = held m c n p q
  | 0, h, p, q => by
    rw [outsAt0_A m c ⟨0, h⟩ rfl, first_step]
    exact first_step_blocks (tokens m c) (weights m c) (expert 0) (colBlock 0) (iblk m c 0 ⟨0, h⟩) (iblk m c 1 ⟨0, h⟩)
      (tokens_block m c ⟨0, h⟩) (weights_block m c ⟨0, h⟩) p q
  | n + 1, h, p, q => by
    have hN : n + 1 < 256 := lt_of_lt_of_eq h N_0
    by_cases h0 : (n + 1) % 8 = 0
    · rw [outsAt0_A m c ⟨n + 1, h⟩ h0, first_step]
      unfold held
      rw [h0]
      have hk : feat ((n + 1) % 8) (k_lt _) = feat 0 (by decide) := by
        funext s; exact Fin.ext (by rw [feat_val, feat_val, h0])
      exact first_step_blocks (tokens m c) (weights m c) (expert (n + 1)) (colBlock (n + 1))
        (iblk m c 0 ⟨n + 1, h⟩) (iblk m c 1 ⟨n + 1, h⟩)
        (fun p s => (tokens_block m c ⟨n + 1, h⟩ p s).trans (by rw [hk]))
        (fun q s => (weights_block m c ⟨n + 1, h⟩ q s).trans (by rw [hk])) p q
    · rw [outsAt0_B m c ⟨n + 1, h⟩ h0, later_step]
      have ih := tile_after c n (Nat.lt_of_succ_lt h) p q
      have ee : expert n = expert (n + 1) := Fin.ext (by rw [expert_val, expert_val]; omega)
      have ej : colBlock n = colBlock (n + 1) := Fin.ext (by rw [colBlock_val, colBlock_val]; omega)
      have ek : n % 8 + 1 = (n + 1) % 8 := by omega
      unfold held at ih ⊢
      rw [ee, ej, ek] at ih
      exact acc_step_blocks (tokens m c) (weights m c) (expert (n + 1)) (colBlock (n + 1)) ((n + 1) % 8) (k_lt _)
        (iblk m c 0 ⟨n + 1, h⟩) (iblk m c 1 ⟨n + 1, h⟩) (outsAt0 m c n (Nat.lt_of_succ_lt h))
        (tokens_block m c ⟨n + 1, h⟩) (weights_block m c ⟨n + 1, h⟩) p q ih

/-- At the last point of a run (`n % 8 = 7`) the tile holds whole entries of the product. -/
theorem tile_at_flush (c : Dev nD) (t : Fin cfg0.N) (h7 : t.val % 8 = 7) (p : Fin 2048) (q : Fin 1024) :
    (outsAt0 m c t.val t.isLt : Vec Ideal S1x2048x1024 .f32) (ix3 (0 : Fin 1) p q)
      = entry (tokens m c) (weights m c) (expert t.val) p (col (colBlock t.val) q) := by
  rw [tile_after m c t.val t.isLt p q]
  unfold held
  rw [h7]
  exact entry_eq_blocks _ _ _ _ _

end Cert.KernelIdeal.Acc

end
-- ==== Proof.WholeArray.lean ====
import proofs.«132584_j36507222016814_2_alg».proof.Proof.Accumulated
import Idealize.ShloMosaic.Lib.Pipeline.Value

/-!
# The kernel's output array

The output tile is written back to the array at the last point of each run along the contraction axis, and at no other
point. By then it holds whole entries of the grouped product, so the block written back is the block of the product it
lands on: rows of the point's expert, the point's block of 1024 output features. The 32 blocks written back (8 experts ×
4 blocks of columns) tile the output array — the block that holds entry `(e, r, f)` is written at the point
`32 e + 8 (f / 1024) + 7` — so after the run the array is the grouped product of the arrays the kernel was given.
-/

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Tile Cert.KernelIdeal.Acc Cert.GroupedProduct

variable (m : (ℓ : Loc nD τ sig) → Buf (Elt Ideal) ℓ)

/-- A tile whose entry `(p, q)` is the entry of an array `G` at (the point's expert, `p`, column `q` of the point's block)
    is the point's output block of `G`. -/
theorem eq_output_block (t : Fin cfg0.N) (G : FVec Ideal STok .f32) (Y : Vec Ideal S1x2048x1024 .f32)
    (h : ∀ (p : Fin 2048) (q : Fin 1024), Y (ix3 (0 : Fin 1) p q) = G (ix3 (expert t.val) p (col (colBlock t.val) q))) :
    Y = ((cfg0.win 2).blk t).view.read (Elt Ideal) G := by
  obtain ⟨-, -, -, -, -, -, e0, e1, e2⟩ := index_facts t
  have hN := point_lt t
  funext y
  obtain ⟨u, p, q, rfl⟩ : ∃ (u : Fin 1) (p : Fin 2048) (q : Fin 1024), y = ix3 u p q := ⟨y 0, y 1, y 2, eq_ix3 y⟩
  obtain rfl : u = 0 := Subsingleton.elim _ _
  rw [h p q]
  show G _ = G (((cfg0.win 2).blk t).view.emb (ix3 (0 : Fin 1) p q))
  refine congrArg G ?_
  funext a; apply Fin.ext
  match a with
  | ⟨0, _⟩ => show t.val / 32 % 8 = win0_2.index t (0 : Fin 3) * 1 + 1 * 0; omega
  | ⟨1, _⟩ => show p.val = win0_2.index t (1 : Fin 3) * 2048 + 1 * p.val; omega
  | ⟨2, _⟩ => show 1024 * (t.val / 8 % 4) + q.val = win0_2.index t (2 : Fin 3) * 1024 + 1 * q.val; omega

/-- What a point that writes back writes: its output block of the grouped product. -/
theorem flushed_eq (c : Dev nD) (t : Fin cfg0.N) (hf : (cfg0.win 2).flush t = true) :
    (dats m 0 c).flushed 2 t = ((cfg0.win 2).blk t).view.read (Elt Ideal) (product (tokens m c) (weights m c)) := by
  have h7 : t.val % 8 = 7 := (flush0_2 t).mp hf
  show (cfg0.win 2).cut (grid0.coords t) ((dats m 0 c).after 2 t) = _
  rw [after0_2]
  exact eq_output_block t (product (tokens m c) (weights m c)) (outsAt0 m c t.val t.isLt)
    (fun p q => tile_at_flush m c t h7 p q)

/-- An index of the output array is in point `t`'s block iff each coordinate is in the block's range on its axis. -/
theorem mem_output_block (t : Fin cfg0.N) (i : S8x2048x4096.Idx) :
    i ∈ ((cfg0.win 2).blk t).view.set ↔ ∀ a : Fin 3, win0_2.index t a * S1x2048x1024.size a ≤ (i a).val
      ∧ (i a).val < win0_2.index t a * S1x2048x1024.size a + S1x2048x1024.size a := by
  show i ∈ ((View.whole main_v1).slice (win0_2.rect t)).set ↔ _
  rw [View.set_slice_whole, Rect.mem_set_unit]
  exact Iff.rfl

/-- The point of expert `i 0` and of the block of columns that holds `i 2` has `i` in its output block. -/
theorem mem_of_coords (t : Fin cfg0.N) (i : S8x2048x4096.Idx) (h0 : (i 0).val = t.val / 32)
    (h2 : (i 2).val / 1024 = t.val / 8 % 4) : i ∈ ((cfg0.win 2).blk t).view.set := by
  obtain ⟨-, -, -, -, -, -, e0, e1, e2⟩ := index_facts t
  have b1 : (i 1).val < 2048 := (i 1).isLt
  rw [mem_output_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 1024 ≤ (i 2).val ∧ (i 2).val < win0_2.index t (2 : Fin 3) * 1024 + 1024; omega

/-- Every index of the output array is in the block some point writes back. -/
theorem covered (i : S8x2048x4096.Idx) :
    ∃ t : Fin cfg0.N, (cfg0.win 2).flush t = true ∧ i ∈ ((cfg0.win 2).blk t).view.set := by
  have b0 : (i 0).val < 8 := (i 0).isLt
  have b2 : (i 2).val < 4096 := (i 2).isLt
  have hlt : 32 * (i 0).val + 8 * ((i 2).val / 1024) + 7 < cfg0.N := by rw [show cfg0.N = 256 from N_0]; omega
  refine ⟨⟨32 * (i 0).val + 8 * ((i 2).val / 1024) + 7, hlt⟩, (flush0_2 _).mpr ?_, mem_of_coords _ i ?_ ?_⟩
  · show (32 * (i 0).val + 8 * ((i 2).val / 1024) + 7) % 8 = 7; omega
  · show (i 0).val = (32 * (i 0).val + 8 * ((i 2).val / 1024) + 7) / 32; omega
  · show (i 2).val / 1024 = (32 * (i 0).val + 8 * ((i 2).val / 1024) + 7) / 8 % 4; omega

/-- After the run the output array is the grouped product of the tokens and the weights the kernel was given. -/
theorem output_array (c : Dev nD) :
    (dats m 0 c).arrAt 2 cfg0.N = product (tokens m c) (weights m c) :=
  (dats m 0 c).arrAt_eq_of_cover 2 (product (tokens m c) (weights m c)) (flushed_eq m c) covered

end Cert.KernelIdeal.Whole

end
-- ==== Proof.WholeProgram.lean ====
import proofs.«132584_j36507222016814_2_alg».proof.Proof.WholeArray
import Idealize.ShloMosaic.Lib.StableHlo.Run

/-!
# The kernel's program, end to end

Around the kernel the program only regroups: before it, the tokens `[16384, 4096]` are viewed as `[8, 2048, 4096]`
(expert, row, feature); after it, the output `[8, 2048, 4096]` is viewed as `[16384, 4096]`. The weights reach the
kernel as given. So the program's result is the regrouping of the grouped product of the regrouped tokens and the
weights, and its arguments end as they were.
-/

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Acc Cert.GroupedProduct

variable (m : (ℓ : Loc nD τ sig) → Buf (Elt Ideal) ℓ) (ρ : Dev nD → PrngReg)

/-- The tokens the kernel finds are the argument regrouped by expert. -/
theorem tokens_eq (c : Dev nD) :
    tokens m c = shapeCast S8x2048x4096 (m ((c : Thread nD τ).loc main_arg0)) shapeCasts_S16384x4096_S8x2048x4096 := by
  show StableHlo.after hostOps0 (fun b => m (c, b)) (Proc.devRef .tc main_v0) = _
  after_results
  rfl

/-- The weights the kernel finds are the argument. -/
theorem weights_eq (c : Dev nD) : weights m c = m ((c : Thread nD τ).loc main_arg1) := V_main_arg1 m c

/-- The program's result is the kernel's output array regrouped. -/
theorem result_eq (c : Dev nD) :
    Pipeline.afterTail₀ cfgs (dats m) 0 (V0 m) [hostOps1] c main_v2
      = shapeCast S16384x4096 ((dats m 0 c).arrAt 2 cfg0.N) shapeCasts_S8x2048x4096_S16384x4096 := by
  unfold Pipeline.afterTail₀
  show StableHlo.after hostOps1 _ (Proc.devRef .tc main_v2) = _
  after_results
  exact congrArg (fun a => shapeCast S16384x4096 a shapeCasts_S8x2048x4096_S16384x4096)
    (Pipeline.withArrays_arr spec0 launch0.win.arr_inj c _ _ 2)

/-- The whole program as one function of its arguments. -/
def result (x0 : FVec Ideal S16384x4096 .f32) (x1 : FVec Ideal S8x4096x4096 .f32) : FVec Ideal S16384x4096 .f32 :=
  shapeCast S16384x4096 (product (shapeCast S8x2048x4096 x0 shapeCasts_S16384x4096_S8x2048x4096) x1)
    shapeCasts_S8x2048x4096_S16384x4096

/-- Every weakly fair execution of the program terminates with the result array at `result` of the argument arrays,
    and the arguments unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans
        ((result_eq m c).trans (by rw [output_array, tokens_eq, weights_eq]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.RefProduct.lean ====
import proofs.«132584_j36507222016814_2_alg».proof.Proof.Gen.ReferenceIdeal.Read
import proofs.«132584_j36507222016814_2_alg».proof.Proof.GroupedProduct

/-!
# The reference computes the grouped product

The reference regroups the tokens by expert, takes one batched contraction — batch axis the expert, both operands
contracted along their last axis — and regroups back. Read at an entry `(e, r, f)` over the extended reals, the
contraction is `∑ d, X[e, r, d] · W[e, f, d]`: the grouped product of the regrouped tokens and the weights.
-/

noncomputable section

namespace Cert.ReferenceIdeal.Grouped

open Idealize.ShloMosaic Idealize.ShloMosaic.ValueIdx
open Cert.ReferenceIdeal Cert.ReferenceIdeal.Gen Cert.ReferenceIdeal.Read Cert.GroupedProduct

/-- The reference's batched contraction of the regrouped tokens with the weights is the grouped product. -/
theorem contraction_eq_product (x0 : FVec Ideal S16384x4096 .f32) (x1 : FVec Ideal S8x4096x4096 .f32) :
    val_main_v1 (F := Ideal) x0 x1 = product (val_main_v0 (F := Ideal) x0) x1 := by
  funext i
  refine (val_main_v1_apply x0 x1 i).trans ?_
  show _ = ∑ d : Fin 4096, val_main_v0 (F := Ideal) x0 (ix3 (i 0) (i 1) d) * x1 (ix3 (i 0) (i 2) d)
  refine Finset.sum_congr rfl fun k _ => ?_
  have el : lidx_main_v1 i k = ix3 (i 0) (i 1) k :=
    funext fun a => match a with | ⟨0, _⟩ => rfl | ⟨1, _⟩ => rfl | ⟨2, _⟩ => rfl
  have er : ridx_main_v1 i k = ix3 (i 0) (i 2) k :=
    funext fun a => match a with | ⟨0, _⟩ => rfl | ⟨1, _⟩ => rfl | ⟨2, _⟩ => rfl
  rw [el, er]
  rfl

end Cert.ReferenceIdeal.Grouped

end
-- ==== Proof.lean ====
/-
  A grouped matrix product against its batched-contraction reference, over the extended reals.

  Eight experts each own 2048 consecutive rows of the tokens `inp : [16384, 4096]` and one weight
  `weight[e] : [4096, 4096]` stored output-feature major. Both programs first view the tokens as
  `X : [8, 2048, 4096]` and at the end view the result `[8, 2048, 4096]` as `[16384, 4096]`; in between both compute

      out[e, r, f] = ∑ d < 4096, X[e, r, d] · weight[e, f, d].

  The reference takes this sum in one batched contraction. The kernel walks a grid of 8 experts × 4 blocks of 1024
  output features × 8 blocks of 512 input features; at each point it multiplies a 2048 × 512 block of `X[e]` by the
  transpose of a 1024 × 512 block of `weight[e]` (operands narrowed to bfloat16, which is the identity on the extended
  reals) and adds the 2048 × 1024 product into an output tile that is zeroed at the first block of input features and
  written back after the last. After `k + 1` blocks the tile's entry holds the first `512 (k + 1)` terms of the sum above
  (`Acc.tile_after`, by induction along the grid; only associativity and commutativity of `+` are used, so no finiteness
  of the inputs is needed), after the eighth block the whole sum, and the 32 tiles written back tile the output array
  (`Whole.output_array`). Hence both programs end at the same array (`algebraic`).

  The three frame claims are the generated frames of the two kernel programs and the reference's generated run; the
  idealization rewrote nothing, so `preserves` is trivial.
-/
import proofs.«132584_j36507222016814_2_alg».proof.Defs
import proofs.«132584_j36507222016814_2_alg».proof.Proof.Gen.Kernel
import proofs.«132584_j36507222016814_2_alg».proof.Proof.Gen.Kernel.Skeleton
import proofs.«132584_j36507222016814_2_alg».proof.Proof.Gen.Kernel.Launch
import proofs.«132584_j36507222016814_2_alg».proof.Proof.Gen.Kernel.Points
import proofs.«132584_j36507222016814_2_alg».proof.Proof.Gen.Kernel.Frame
import proofs.«132584_j36507222016814_2_alg».proof.Proof.Gen.KernelIdeal
import proofs.«132584_j36507222016814_2_alg».proof.Proof.Gen.KernelIdeal.Skeleton
import proofs.«132584_j36507222016814_2_alg».proof.Proof.Gen.KernelIdeal.Launch
import proofs.«132584_j36507222016814_2_alg».proof.Proof.Gen.KernelIdeal.Points
import proofs.«132584_j36507222016814_2_alg».proof.Proof.Gen.KernelIdeal.Frame
import proofs.«132584_j36507222016814_2_alg».proof.Proof.Gen.ReferenceIdeal
import proofs.«132584_j36507222016814_2_alg».proof.Proof.Gen.Pre_finite_inputs
import proofs.«132584_j36507222016814_2_alg».proof.Proof.Gen.ReferenceIdeal.Run
import proofs.«132584_j36507222016814_2_alg».proof.Proof.Gen.ReferenceIdeal.Read
import proofs.«132584_j36507222016814_2_alg».proof.Proof.WholeProgram
import proofs.«132584_j36507222016814_2_alg».proof.Proof.RefProduct
import Idealize.ShloMosaic.Adequacy
import Idealize.ShloMosaic.Init

noncomputable section

namespace Cert.Proof

open Idealize.ShloMosaic Idealize.ShloMosaic.TcCoe Idealize.SL.Sem

/-- The kernel as printed runs, faults nowhere, and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with its result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From arguments that agree, the kernel's program ends at the regrouped grouped product of the regrouped tokens and
    the weights, and the reference at its regrouped batched contraction of the same: one array. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1]
  exact congrArg (fun a => shapeCast Cert.ReferenceIdeal.S16384x4096 a Cert.ReferenceIdeal.Facts₀.shapeCasts_S8x2048x4096_S16384x4096)
    (Cert.ReferenceIdeal.Grouped.contraction_eq_product _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
